-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S64x2048 : Shape := ⟨2, ![64, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x2048x64.size a
  hwx0_0 : ∀ i : grid0.Coords, EltTy.bits .f32 = 32 ∨ (Rect.block (s := S16x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S16x2048x64.size a
  hwx0_3 : ∀ i : grid0.Coords, EltTy.bits .f32 = 32 ∨ (Rect.block (s := S16x2048x64) S1x1024x64.size (cc0_transform_3 i) (hinb0_3 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S_, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S16x2048x1, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S16x2048x2048, .f32⟩
  | .hbm, ⟨21, _⟩ => ⟨S16x2048x2048, .f32⟩
  | .hbm, ⟨22, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.LibRealEntry.lean ====
/-
  Which extended reals pass the test "|x| < +∞": exactly the real numbers. At −∞ and at +∞ the absolute value
  max(x, −x) is +∞, which is not below +∞; at a real number it is a real number, which is.
-/
import Idealize.ShloMosaic.PureOps.Ideal.Laws

noncomputable section

namespace Cert.Lib.RealEntry

open Idealize.ShloMosaic

/-- An extended real whose absolute value compares below the single-precision +∞ pattern is a real number. -/
theorem real_of_abs_lt_inf (x : EReal)
    (h : Ideal.cmp .olt (max x (-x)) (Ideal.ofBits .f32 0x7F800000#32) = 1#1) : ∃ r : ℝ, x = r := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

end Cert.Lib.RealEntry

end
-- ==== Proof.Finite.lean ====
/-
  The precondition "every entry of the three inputs is finite", read back. The test computes, for each array, the
  conjunction over all entries of "|x| < +∞", and then the conjunction of the three results. A conjunction of bits that
  is 1 has every bit 1; so each entry x of each array satisfies |x| < +∞, and an extended real with that property is a
  real number (at ±∞ the absolute value is +∞, which is not below +∞).
-/
import proofs.«129874_j14551349198869_2_alg».proof.Pre_finite_inputs
import proofs.«129874_j14551349198869_2_alg».proof.Proof.LibRealEntry
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx
open Cert.Pre_finite_inputs

/-- The shape with no axes has exactly one index. -/
instance : Subsingleton S_.Idx := ⟨fun a b => funext fun d => d.elim0⟩

/-- One array: if the conjunction over all entries of "|x| < +∞" is 1, every entry is a real number. -/
theorem real_of_all [Facts] (x : FVec Ideal S16x2048x64 .f32)
    (h : Host.reduce IntOp.andi
          (cmpf .olt (Host.absf x)
            (broadcastInDim S16x2048x64 ![] Facts.bcast_S_S16x2048x64 (constant (F := Ideal) S_ .f32 0x7F800000#32)))
          (constantI S_ 1 1#1) Facts.reducesTo_S16x2048x64_S_d0_1_2 Facts.h_S_ ix0 = 1#1) :
    ∀ i, ∃ r : ℝ, x i = (r : EReal) := by
  intro i
  -- the bit at entry i is 1
  have e := Host.reduce_andi_all _ _ _ _ _ h i
  -- and that bit is the comparison of max (x i) (-(x i)) with the +∞ pattern
  exact Cert.Lib.RealEntry.real_of_abs_lt_inf (x i) e

/-- The precondition decoded: all three inputs have only real entries. -/
theorem real_of_pre [Facts] (x0 x1 x2 : FVec Ideal S16x2048x64 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h ix0
  unfold Cert.Pre_finite_inputs.fn at e
  dsimp only [andi] at e
  -- the conjunction of the three bits is 1: each of them is
  rw [IntOp.andi_eq_one, IntOp.andi_eq_one] at e
  obtain ⟨⟨h0, h1⟩, h2⟩ := e
  exact ⟨real_of_all x0 h0, real_of_all x1 h1, real_of_all x2 h2⟩

end Cert.Finite

end
-- ==== Proof.LibColumn.lean ====
/-
  Column forms of two layout operations, read at an index: a length-a vector cast to an a-by-1 column,
  and an a-by-1 column broadcast across b columns. (A row sum kept as a column, then spread back over the row.)
-/
import Idealize.ShloMosaic.Lib.Pipeline.Value
import Idealize.ShloMosaic.Lib.ValueIdx

noncomputable section

namespace Cert.Lib.Column

open Idealize.ShloMosaic Idealize.ShloMosaic.ValueIdx

variable {α : Type}

/-- A length-`a` vector cast to an `a`-by-1 column reads, at `(i, u)`, the vector at `i`: both sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `a`-by-1 column broadcast to `a`-by-`b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.LibSoftmaxShift.lean ====
/-
  Exponentials of shifted real scores, normalised, on the extended reals.

  For finitely many real scores s_k (at least one) and a real shift M,
      exp(s_j − M) / (0 + Σ_k exp(s_k − M)) = exp(s_j) / Σ_k exp(s_k),
  since exp(s − M) = exp(s)/exp(M) and the common factor 1/exp(M) leaves the quotient: the weights computed after
  subtracting a row's maximum are the weights computed directly. Beside it: a finite sum of reals taken in the
  extended reals is the real sum, and the maximum of at least one real folded from −∞ (and compared with −∞ once
  more, as a guarded row maximum is) is a real number, so it can serve as the shift M.
-/
import Idealize.ShloMosaic.PureOps.Ideal.Laws

noncomputable section

open scoped BigOperators

namespace Cert.Lib.SoftmaxShift

open Idealize.ShloMosaic

/-- A finite sum of reals, taken in the extended reals, is the real sum. -/
theorem coe_sum {ι : Type*} (s : Finset ι) (f : ι → ℝ) : ∑ k ∈ s, ((f k : ℝ) : EReal) = ((∑ k ∈ s, f k : ℝ) : EReal) := by
  classical
  refine Finset.induction_on s (by simp) ?_
  intro a s ha ih
  rw [Finset.sum_insert ha, Finset.sum_insert ha, ih, EReal.coe_add]

/-- The largest of finitely many reals, folded from −∞ and then compared with −∞ once more, is a real number
    (there is at least one of them). -/
theorem rowMax_real {K : ℕ} (hK : 0 < K) (s : Fin K → ℝ) :
    ∃ M : ℝ, max (⊥ : EReal) ((Finset.univ : Finset (Fin K)).fold max (⊥ : EReal) (fun k => (s k : EReal))) = (M : EReal) := by
  rw [max_eq_right bot_le]
  have htop : (Finset.univ : Finset (Fin K)).fold max (⊥ : EReal) (fun k => (s k : EReal)) ≠ ⊤ := by
    have h : (Finset.univ : Finset (Fin K)).fold max (⊥ : EReal) (fun k => (s k : EReal)) < ⊤ := by
      rw [Finset.fold_max_lt]
      exact ⟨bot_lt_top, fun k _ => EReal.coe_lt_top _⟩
    exact h.ne
  have hbot : (Finset.univ : Finset (Fin K)).fold max (⊥ : EReal) (fun k => (s k : EReal)) ≠ ⊥ := by
    have h : (⊥ : EReal) < (Finset.univ : Finset (Fin K)).fold max (⊥ : EReal) (fun k => (s k : EReal)) := by
      rw [Finset.lt_fold_max]
      exact Or.inr ⟨(⟨0, hK⟩ : Fin K), Finset.mem_univ _, EReal.bot_lt_coe _⟩
    exact h.ne'
  exact ⟨_, (EReal.coe_toReal htop hbot).symm⟩

/-- THE LAW. For real scores and a real shift `M`, exponentiating the shifted scores and normalising them (the
    normaliser summed from zero) gives the weights of the unshifted scores. -/
theorem softmax_shift {K : ℕ} (hK : 0 < K) (s : Fin K → ℝ) (M : ℝ) (j : Fin K) :
    Ideal.div (Ideal.exp ((s j : EReal) - (M : EReal))) ((0 : EReal) + ∑ k : Fin K, Ideal.exp ((s k : EReal) - (M : EReal)))
      = Ideal.div (Ideal.exp (s j : EReal)) (∑ k : Fin K, Ideal.exp (s k : EReal)) := by
  have hne : (Finset.univ : Finset (Fin K)).Nonempty := ⟨⟨0, hK⟩, Finset.mem_univ _⟩
  have hpos : 0 < ∑ k : Fin K, Real.exp (s k) := Finset.sum_pos (fun k _ => Real.exp_pos _) hne
  have hpos' : 0 < ∑ k : Fin K, Real.exp (s k - M) := Finset.sum_pos (fun k _ => Real.exp_pos _) hne
  have hM : Real.exp M ≠ 0 := (Real.exp_pos M).ne'
  simp only [← EReal.coe_sub, Ideal.exp_coe, zero_add, coe_sum]
  rw [Ideal.div_coe hpos.ne', Ideal.div_coe hpos'.ne', ← EReal.coe_mul, ← EReal.coe_mul]
  refine congrArg _ ?_
  have hs : ∑ k : Fin K, Real.exp (s k - M) = (∑ k : Fin K, Real.exp (s k)) / Real.exp M := by
    rw [Finset.sum_div]; exact Finset.sum_congr rfl fun k _ => Real.exp_sub _ _
  rw [hs, Real.exp_sub]
  have hS : (∑ k : Fin K, Real.exp (s k)) ≠ 0 := hpos.ne'
  field_simp

end Cert.Lib.SoftmaxShift

end
-- ==== Proof.Consts.lean ====
/-
  The float literals the two programs spell, as the extended reals their bit patterns denote:
  1/8 (the scale folded into the queries), 64 (whose square root the reference divides by) and −∞ (where both
  row maxima start). Zero is the library's.
-/
import Idealize.ShloMosaic.PureOps.Ideal.Laws

noncomputable section

namespace Cert.Consts

open Idealize.ShloMosaic

/-- The pattern of `0.125` denotes the real 1/8. -/
theorem ofBits_eighth : Ideal.ofBits .f32 0x3E000000#32 = (((1 / 8 : ℝ)) : EReal) := by
  simp [Ideal.ofBits, Ideal.ieee, -EReal.coe_mul]; norm_num

/-- The pattern of `64.0` denotes the real 64. -/
theorem ofBits_64 : Ideal.ofBits .f32 0x42800000#32 = ((64 : ℝ) : EReal) := by
  simp [Ideal.ofBits, Ideal.ieee, -EReal.coe_mul]; norm_num

/-- The pattern `0xFF800000` denotes −∞. -/
theorem ofBits_neg_inf : Ideal.ofBits .f32 0xFF800000#32 = (⊥ : EReal) := by
  simp [Ideal.ofBits, Ideal.ieee]

/-- The square root of 64 is 8. -/
theorem sqrt_64 : Ideal.sqrt ((64 : ℝ) : EReal) = ((8 : ℝ) : EReal) := by
  rw [Ideal.sqrt_coe, if_neg (by norm_num)]
  refine congrArg _ ?_
  rw [show (64 : ℝ) = 8 ^ 2 by norm_num]
  exact Real.sqrt_sq (by norm_num)

end Cert.Consts

end
-- ==== Proof.KerAlgebra.lean ====
/-
  The two algebraic facts the kernel's arrangement needs, on the extended reals with real inputs.

  (1) Scaling the query row by 1/8 before the product with a key row gives the scaled score:
        Σ_e (q_e · 1/8) · k_e = (Σ_e q_e k_e) / 8.
  (2) The kernel divides once, after the weighted sum: with shifted scores s_k − M (M any real),
        (Σ_k exp(s_k − M) · v_k) / (Σ_k exp(s_k − M)) = (Σ_k exp(s_k) · v_k) / (Σ_k exp(s_k)),
      since exp(s − M) = exp(s)/exp(M) and the factor 1/exp(M) is common to numerator and denominator.
-/
import Idealize.ShloMosaic.PureOps.Ideal.Laws
import proofs.«129874_j14551349198869_2_alg».proof.Proof.LibSoftmaxShift
import proofs.«129874_j14551349198869_2_alg».proof.Proof.Consts

noncomputable section

open scoped BigOperators

namespace Cert.KerSide

open Idealize.ShloMosaic Cert.Lib.SoftmaxShift

/-- A row of queries scaled by the literal 1/8, multiplied entry by entry with a row of keys and summed,
    is the plain sum of products divided by 8. -/
theorem scaled_score {n : ℕ} (qrow krow : Fin n → ℝ) :
    ∑ e : Fin n, ((qrow e : ℝ) : EReal) * Ideal.ofBits .f32 0x3E000000#32 * ((krow e : ℝ) : EReal)
      = (((∑ e : Fin n, qrow e * krow e) / 8 : ℝ) : EReal) := by
  rw [Cert.Consts.ofBits_eighth]
  simp only [← EReal.coe_mul, coe_sum]
  refine congrArg _ ?_
  rw [Finset.sum_div]
  exact Finset.sum_congr rfl fun e _ => by ring

/-- The weighted sum of the values divided ONCE by the normaliser, both over scores shifted by a real `M`,
    is the softmax-weighted mean over the unshifted scores. -/
theorem mean_shift {n : ℕ} (hn : 0 < n) (s v : Fin n → ℝ) (M : ℝ) :
    Ideal.div (∑ k : Fin n, Ideal.exp (((s k : ℝ) : EReal) - ((M : ℝ) : EReal)) * ((v k : ℝ) : EReal))
        (∑ k : Fin n, Ideal.exp (((s k : ℝ) : EReal) - ((M : ℝ) : EReal)))
      = (((∑ k : Fin n, Real.exp (s k) * v k) / (∑ k : Fin n, Real.exp (s k)) : ℝ) : EReal) := by
  have hne : (Finset.univ : Finset (Fin n)).Nonempty := ⟨⟨0, hn⟩, Finset.mem_univ _⟩
  have hpos : 0 < ∑ k : Fin n, Real.exp (s k) := Finset.sum_pos (fun k _ => Real.exp_pos _) hne
  have hpos' : 0 < ∑ k : Fin n, Real.exp (s k - M) := Finset.sum_pos (fun k _ => Real.exp_pos _) hne
  have hM : Real.exp M ≠ 0 := (Real.exp_pos M).ne'
  simp only [← EReal.coe_sub, Ideal.exp_coe, ← EReal.coe_mul, coe_sum]
  rw [Ideal.div_coe hpos'.ne', ← EReal.coe_mul]
  refine congrArg _ ?_
  have h1 : ∑ k : Fin n, Real.exp (s k - M) * v k = (∑ k : Fin n, Real.exp (s k) * v k) / Real.exp M := by
    rw [Finset.sum_div]; exact Finset.sum_congr rfl fun k _ => by rw [Real.exp_sub]; ring
  have h2 : ∑ k : Fin n, Real.exp (s k - M) = (∑ k : Fin n, Real.exp (s k)) / Real.exp M := by
    rw [Finset.sum_div]; exact Finset.sum_congr rfl fun k _ => Real.exp_sub _ _
  rw [h1, h2]
  have hS : (∑ k : Fin n, Real.exp (s k)) ≠ 0 := hpos.ne'
  field_simp

/-- The largest of at least one real, folded from −∞, is a real number. -/
theorem foldMax_real {n : ℕ} (hn : 0 < n) (s : Fin n → ℝ) :
    ∃ M : ℝ, (Finset.univ : Finset (Fin n)).fold max (⊥ : EReal) (fun k => ((s k : ℝ) : EReal)) = ((M : ℝ) : EReal) := by
  obtain ⟨M, hM⟩ := rowMax_real hn s
  exact ⟨M, by rw [← hM, max_eq_right bot_le]⟩

end Cert.KerSide

end
-- ==== Proof.KerPay.lean ====
/-
  What one grid point of the kernel stores, entry by entry.

  A point holds a tile of 1024 query rows, all 2048 key rows and all 2048 value rows of one batch. It scales the
  queries by 1/8, multiplies them against the transposed keys (a 1024-by-2048 score matrix), takes each row's maximum,
  exponentiates the scores less that maximum, sums each row of exponentials, multiplies the exponentials against the
  values, and divides row p of that product by row p's sum. Read at (p, d):
      out(p, d) = (Σ_k E(p,k) · v(k,d)) / (Σ_k E(p,k)),   E(p,k) = exp(S(p,k) − max_k' S(p,k')),
      S(p,k) = Σ_e (q(p,e) · 1/8) · key(k,e).
  With real inputs this is the softmax-weighted mean of the value rows (the algebra is in KerAlgebra).
-/
import proofs.«129874_j14551349198869_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«129874_j14551349198869_2_alg».proof.Proof.LibColumn
import proofs.«129874_j14551349198869_2_alg».proof.Proof.LibMatmul
import proofs.«129874_j14551349198869_2_alg».proof.Proof.KerAlgebra

noncomputable section

open scoped BigOperators

namespace Cert.KerSide

open Cert.KernelIdeal Cert.KernelIdeal.Gen Idealize.ShloMosaic Idealize.ShloMosaic.ValueIdx

/-! ## The stages of the body, named -/

/-- The score matrix: scaled queries against transposed keys. -/
def scores (x0 : Vec Ideal S1x1024x64 .f32) (x5 : Vec Ideal S1x2048x64 .f32) : FVec Ideal S1024x2048 .f32 :=
  matmul dot_S1024x64_S64x2048_S1024x2048_1_0_0_1_n_n none
    (truncf .bf16 (mulf (shapeCast S1024x64 x0 shapeCasts_S1x1024x64_S1024x64)
      (broadcast S1024x64 (Scalar.ofBits (F := Ideal) .f32 0x3E000000#32))) bitsLt_bf16_f32)
    (transpose S64x2048 [1, 0] (truncf .bf16 (shapeCast S2048x64 x5 shapeCasts_S1x2048x64_S2048x64) bitsLt_bf16_f32)
      transposes_S2048x64_p1_0_S64x2048)
    (constant (F := Ideal) S1024x2048 .f32 0x00000000#32)

/-- Each row's maximum, folded from −∞. -/
def rowmax (s : FVec Ideal S1024x2048 .f32) : FVec Ideal S1024 .f32 :=
  multiReduction (F := Ideal) .maximumf [1] S1024 s 0xFF800000#32 reduces_S1024x2048_S1024 (.inl rfl) rfl

/-- The exponentials of the scores less their row's maximum. -/
def expo (s : FVec Ideal S1024x2048 .f32) : FVec Ideal S1024x2048 .f32 :=
  exp (subf s (broadcastTo S1024x2048 (shapeCast S1024x1 (rowmax s) shapeCasts_S1024_S1024x1) broadcasts_S1024x1_S1024x2048))

/-- Each row's sum. -/
def rowsum (e : FVec Ideal S1024x2048 .f32) : FVec Ideal S1024 .f32 :=
  multiReduction (F := Ideal) .add [1] S1024 e 0x00000000#32 reduces_S1024x2048_S1024 (.inl rfl) rfl

/-- The exponentials against the values. -/
def weighted (e : FVec Ideal S1024x2048 .f32) (x8 : Vec Ideal S1x2048x64 .f32) : FVec Ideal S1024x64 .f32 :=
  matmul dot_S1024x2048_S2048x64_S1024x64_1_0_0_1_n_n none (truncf .bf16 e bitsLt_bf16_f32)
    (truncf .bf16 (shapeCast S2048x64 x8 shapeCasts_S1x2048x64_S2048x64) bitsLt_bf16_f32)
    (constant (F := Ideal) S1024x64 .f32 0x00000000#32)

/-- The stored tile is these stages composed. -/
theorem pay_eq (x0 : Vec Ideal S1x1024x64 .f32) (x5 x8 : Vec Ideal S1x2048x64 .f32) :
    k0_pay1 (F := Ideal) x0 x5 x8
      = shapeCast S1x1024x64 (divf (weighted (expo (scores x0 x5)) x8)
          (broadcastTo S1024x64 (shapeCast S1024x1 (rowsum (expo (scores x0 x5))) shapeCasts_S1024_S1024x1)
            broadcasts_S1024x1_S1024x64)) shapeCasts_S1024x64_S1x1024x64 := rfl

/-! ## Each stage at an index -/

theorem scores_apply (x0 : Vec Ideal S1x1024x64 .f32) (x5 : Vec Ideal S1x2048x64 .f32) (p : Fin 1024) (k : Fin 2048) :
    scores x0 x5 (ix2 p k)
      = ∑ e : Fin 64, x0 (ix3 (0 : Fin 1) p e) * Ideal.ofBits .f32 0x3E000000#32 * x5 (ix3 (0 : Fin 1) k e) := by
  unfold scores
  refine (Cert.Lib.Matmul.matmul_zero_ix2 dot_S1024x64_S64x2048_S1024x2048_1_0_0_1_n_n none rfl rfl
    (fun j c => by
      unfold DotDims.lhsIdx
      rw [dif_neg (show ¬(0 : Fin S1024x64.rank) ∈ dot_S1024x64_S64x2048_S1024x2048_1_0_0_1_n_n.lhsBatch by decide),
        dif_pos (show (0 : Fin S1024x64.rank) ∈ dot_S1024x64_S64x2048_S1024x2048_1_0_0_1_n_n.lhsNonContracting by decide)]
      rfl)
    (fun j c => dot_S1024x64_S64x2048_S1024x2048_1_0_0_1_n_n.lhsIdx_val_of_single rfl j c)
    (fun j c => dot_S1024x64_S64x2048_S1024x2048_1_0_0_1_n_n.rhsIdx_val_of_single rfl j c)
    (fun j c => by
      unfold DotDims.rhsIdx
      rw [dif_neg (show ¬(1 : Fin S64x2048.rank) ∈ dot_S1024x64_S64x2048_S1024x2048_1_0_0_1_n_n.rhsBatch by decide),
        dif_pos (show (1 : Fin S64x2048.rank) ∈ dot_S1024x64_S64x2048_S1024x2048_1_0_0_1_n_n.rhsNonContracting by decide)]
      rfl)
    _ _ p k).trans ?_
  refine Finset.sum_congr rfl fun e _ => ?_
  rw [truncf_apply, mulf_apply, broadcast_apply, shapeCast_1ab_ab_apply, transpose_ix2_apply, truncf_apply,
    shapeCast_1ab_ab_apply]
  rfl

theorem rowmax_apply (s : FVec Ideal S1024x2048 .f32) (p : Fin 1024) :
    rowmax s (ix1 p) = (Finset.univ : Finset (Fin 2048)).fold max (Ideal.ofBits .f32 0xFF800000#32) (fun k => s (ix2 p k)) := by
  unfold rowmax
  refine (Ideal.multiReduction_maximumf_single s _ reduces_S1024x2048_S1024 _ _ (ix1 p)).trans ?_
  refine congrArg (fun f : Fin 2048 → EReal => (Finset.univ : Finset (Fin 2048)).fold max (Ideal.ofBits .f32 0xFF800000#32) f)
    (funext fun k => congrArg s (funext fun a => Fin.ext ?_))
  match a with
  | ⟨0, _⟩ => rfl
  | ⟨1, _⟩ => rfl

theorem expo_apply (s : FVec Ideal S1024x2048 .f32) (p : Fin 1024) (k : Fin 2048) :
    expo s (ix2 p k) = Ideal.exp (s (ix2 p k) - rowmax s (ix1 p)) := by
  unfold expo
  show Ideal.exp (s (ix2 p k) - broadcastTo S1024x2048 (shapeCast S1024x1 (rowmax s) shapeCasts_S1024_S1024x1)
    broadcasts_S1024x1_S1024x2048 (ix2 p k)) = _
  rw [Cert.Lib.Column.broadcastTo_a1_ab_apply, Cert.Lib.Column.shapeCast_a_a1_apply]

theorem rowsum_apply (e : FVec Ideal S1024x2048 .f32) (p : Fin 1024) :
    rowsum e (ix1 p) = ∑ k : Fin 2048, e (ix2 p k) := by
  unfold rowsum
  refine (Ideal.multiReduction_add_single e _ reduces_S1024x2048_S1024 _ _ (ix1 p)).trans ?_
  refine Finset.sum_congr rfl fun k _ => congrArg e (funext fun a => Fin.ext ?_)
  match a with
  | ⟨0, _⟩ => rfl
  | ⟨1, _⟩ => rfl

theorem weighted_apply (e : FVec Ideal S1024x2048 .f32) (x8 : Vec Ideal S1x2048x64 .f32) (p : Fin 1024) (d : Fin 64) :
    weighted e x8 (ix2 p d) = ∑ k : Fin 2048, e (ix2 p k) * x8 (ix3 (0 : Fin 1) k d) := by
  unfold weighted
  refine (Cert.Lib.Matmul.matmul_zero_ix2 dot_S1024x2048_S2048x64_S1024x64_1_0_0_1_n_n none rfl rfl
    (fun j c => by
      unfold DotDims.lhsIdx
      rw [dif_neg (show ¬(0 : Fin S1024x2048.rank) ∈ dot_S1024x2048_S2048x64_S1024x64_1_0_0_1_n_n.lhsBatch by decide),
        dif_pos (show (0 : Fin S1024x2048.rank) ∈ dot_S1024x2048_S2048x64_S1024x64_1_0_0_1_n_n.lhsNonContracting by decide)]
      rfl)
    (fun j c => dot_S1024x2048_S2048x64_S1024x64_1_0_0_1_n_n.lhsIdx_val_of_single rfl j c)
    (fun j c => dot_S1024x2048_S2048x64_S1024x64_1_0_0_1_n_n.rhsIdx_val_of_single rfl j c)
    (fun j c => by
      unfold DotDims.rhsIdx
      rw [dif_neg (show ¬(1 : Fin S2048x64.rank) ∈ dot_S1024x2048_S2048x64_S1024x64_1_0_0_1_n_n.rhsBatch by decide),
        dif_pos (show (1 : Fin S2048x64.rank) ∈ dot_S1024x2048_S2048x64_S1024x64_1_0_0_1_n_n.rhsNonContracting by decide)]
      rfl)
    _ _ p d).trans ?_
  refine Finset.sum_congr rfl fun k _ => ?_
  rw [truncf_apply, truncf_apply, shapeCast_1ab_ab_apply]

/-- The stored tile at `(u, p, d)`: row `p` of the weighted values at `d`, divided by row `p`'s sum of exponentials. -/
theorem pay_apply (x0 : Vec Ideal S1x1024x64 .f32) (x5 x8 : Vec Ideal S1x2048x64 .f32) (u : Fin 1) (p : Fin 1024) (d : Fin 64) :
    k0_pay1 (F := Ideal) x0 x5 x8 (ix3 u p d)
      = Ideal.div (∑ k : Fin 2048, expo (scores x0 x5) (ix2 p k) * x8 (ix3 (0 : Fin 1) k d))
          (∑ k : Fin 2048, expo (scores x0 x5) (ix2 p k)) := by
  rw [pay_eq, shapeCast_ab_1ab_apply, divf_apply, weighted_apply, Cert.Lib.Column.broadcastTo_a1_ab_apply,
    Cert.Lib.Column.shapeCast_a_a1_apply, rowsum_apply]

/-! ## With real inputs -/

/-- If the query row, the key rows and the value column the entry depends on hold real numbers, the stored entry
    is the softmax-weighted mean of the value column, the scores being the scaled dot products. -/
theorem pay_real (x0 : Vec Ideal S1x1024x64 .f32) (x5 x8 : Vec Ideal S1x2048x64 .f32) (u : Fin 1) (p : Fin 1024) (d : Fin 64)
    (qrow : Fin 64 → ℝ) (krows : Fin 2048 → Fin 64 → ℝ) (vcol : Fin 2048 → ℝ)
    (h0 : ∀ e, x0 (ix3 (0 : Fin 1) p e) = ((qrow e : ℝ) : EReal))
    (h5 : ∀ k e, x5 (ix3 (0 : Fin 1) k e) = ((krows k e : ℝ) : EReal))
    (h8 : ∀ k, x8 (ix3 (0 : Fin 1) k d) = ((vcol k : ℝ) : EReal)) :
    k0_pay1 (F := Ideal) x0 x5 x8 (ix3 u p d)
      = (((∑ k : Fin 2048, Real.exp ((∑ e : Fin 64, qrow e * krows k e) / 8) * vcol k)
          / (∑ k : Fin 2048, Real.exp ((∑ e : Fin 64, qrow e * krows k e) / 8)) : ℝ) : EReal) := by
  have hs : ∀ k : Fin 2048, scores x0 x5 (ix2 p k) = (((∑ e : Fin 64, qrow e * krows k e) / 8 : ℝ) : EReal) := fun k => by
    rw [scores_apply, ← scaled_score]
    exact Finset.sum_congr rfl fun e _ => by rw [h0, h5]
  obtain ⟨M, hM⟩ := foldMax_real (n := 2048) (by norm_num) (fun k => (∑ e : Fin 64, qrow e * krows k e) / 8)
  have hmax : rowmax (scores x0 x5) (ix1 p) = ((M : ℝ) : EReal) := by
    rw [rowmax_apply, Cert.Consts.ofBits_neg_inf, ← hM]
    exact congrArg (fun f : Fin 2048 → EReal => (Finset.univ : Finset (Fin 2048)).fold max (⊥ : EReal) f) (funext hs)
  rw [pay_apply, ← mean_shift (n := 2048) (by norm_num) _ vcol M]
  refine congrArg₂ Ideal.div (Finset.sum_congr rfl fun k _ => ?_) (Finset.sum_congr rfl fun k _ => ?_)
  · rw [expo_apply, hs, hmax, h8]
  · rw [expo_apply, hs, hmax]

end Cert.KerSide

end
-- ==== Proof.Spec.lean ====
/-
  Scaled dot-product attention on the reals, entry by entry.

  For a batch b, a query row r and a feature d, with 2048 key rows of 64 features each:
      score(b, r, k)  = (Σ_e q(b, r, e) · key(b, k, e)) / 8            (8 = √64)
      attn(b, r, d)   = (Σ_k exp(score(b, r, k)) · v(b, k, d)) / (Σ_k exp(score(b, r, k))).
  The softmax weights exp(score)/Σ exp(score) sum to one; subtracting any real number from every score of a row
  leaves them unchanged, so the row maximum both programs subtract never appears here.
-/
import Idealize.ShloMosaic.PureOps.Ideal.Laws
import Idealize.ShloMosaic.Lib.ValueIdx

noncomputable section

open scoped BigOperators

namespace Cert.Attn

open Idealize.ShloMosaic Idealize.ShloMosaic.ValueIdx

/-- The shape of the three inputs and of the result: 16 batches of 2048 rows of 64 features. -/
abbrev A : Shape := ⟨3, ![16, 2048, 64]⟩

/-- The scaled score of query row `r` against key row `k` of batch `b`. -/
def score (q key : A.Idx → ℝ) (b : Fin 16) (r k : Fin 2048) : ℝ :=
  (∑ e : Fin 64, q (ix3 b r e) * key (ix3 b k e)) / 8

/-- Attention at `(b, r, d)`: the softmax-weighted mean of the value rows' feature `d`. -/
def attn (q key v : A.Idx → ℝ) (b : Fin 16) (r : Fin 2048) (d : Fin 64) : ℝ :=
  (∑ k : Fin 2048, Real.exp (score q key b r k) * v (ix3 b k d)) / (∑ k : Fin 2048, Real.exp (score q key b r k))

/-- The whole result array, as extended reals. -/
def G (q key v : A.Idx → ℝ) : A.Idx → EReal := fun i => ((attn q key v (i 0) (i 1) (i 2) : ℝ) : EReal)

theorem G_ix3 (q key v : A.Idx → ℝ) (b : Fin 16) (r : Fin 2048) (d : Fin 64) :
    G q key v (ix3 b r d) = ((attn q key v b r d : ℝ) : EReal) := rfl

end Cert.Attn

end
-- ==== Proof.KerBlocks.lean ====
/-
  From the tiles the grid points write to the whole result array.

  The grid has 16 × 2 points; point (b, h) holds rows 1024·h … 1024·h + 1023 of batch b's queries and all of
  batch b's keys and values, and writes the same rows of batch b's result. So the entry a point stores at local
  position (0, p, d) depends on query row 1024·h + p, every key row and column d of every value row of batch b —
  exactly what the attention function reads at (b, 1024·h + p, d). The 32 tiles tile the result array.
-/
import proofs.«129874_j14551349198869_2_alg».proof.Proof.Gen.KernelIdeal.Value
import proofs.«129874_j14551349198869_2_alg».proof.Proof.KerPay
import proofs.«129874_j14551349198869_2_alg».proof.Proof.Spec

set_option maxRecDepth 16384

noncomputable section

open scoped BigOperators

namespace Cert.KerSide

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem off_zero : (![0, 0, 0] : Fin 3 → Nat) = fun _ => 0 := funext fun a => by fin_cases a <;> rfl

/-- The index maps over the grid: the query tile moves with the result tile, the key and value tiles follow the batch
    only, and the result tile's block indices stay below 16 and 2. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) < 16 ∧ win0_3.index t (1 : Fin 3) < 2 :=
  (by decide +kernel : ∀ t : Fin grid0.N, _)

/-- Every (batch, half) pair is some point's result tile. -/
theorem index_onto : ∀ (b : Fin 16) (h : Fin 2), ∃ t : Fin cfg0.N, win0_3.index t = ![b.val, h.val, 0] :=
  (by decide +kernel : ∀ (b : Fin 16) (h : Fin 2), ∃ t : Fin grid0.N, win0_3.index t = ![b.val, h.val, 0])

/-- What point `t` writes back is tile `t` of the attention function of the three argument arrays, when these
    hold real numbers. -/
theorem flushed_eq (c : Dev nD) (q key v : Cert.Attn.A.Idx → ℝ)
    (hq : ∀ i, V m c main_arg0 i = ((q i : ℝ) : EReal)) (hk : ∀ i, V m c main_arg1 i = ((key i : ℝ) : EReal))
    (hv : ∀ i, V m c main_arg2 i = ((v i : ℝ) : EReal)) (t : Fin cfg0.N) :
    (dats m 0 c).flushed 3 t = ((cfg0.win 3).blk t).view.read (Elt Ideal) (Cert.Attn.G q key v) := by
  rw [Cert.KernelIdeal.Value.flushed3]
  unfold out0_3
  rw [View.canon_unit_zero off_zero]
  simp only [View.ld_unit_zero (S := S1x1024x64) off_zero, View.ld_unit_zero (S := S1x2048x64) off_zero]
  obtain ⟨e00, e01, e02, e32, e10, e11, e12, e20, e21, e22, l0, l1⟩ := index_facts t
  funext j
  obtain ⟨u, p, d, rfl⟩ : ∃ (u : Fin 1) (p : Fin 1024) (d : Fin 64), j = ix3 u p d := ⟨j 0, j 1, j 2, eq_ix3 j⟩
  have hu : u.val = 0 := by omega
  show k0_pay1 (F := Ideal) (iblk m c 0 t) (iblk m c 1 t) (iblk m c 2 t) (ix3 u p d)
    = Cert.Attn.G q key v (((cfg0.win 3).blk t).view.emb (ix3 u p d))
  refine (pay_real (iblk m c 0 t) (iblk m c 1 t) (iblk m c 2 t) u p d
    (fun e => q (ix3 ((((cfg0.win 3).blk t).view.emb (ix3 u p d)) 0) ((((cfg0.win 3).blk t).view.emb (ix3 u p d)) 1) e))
    (fun k e => key (ix3 ((((cfg0.win 3).blk t).view.emb (ix3 u p d)) 0) k e))
    (fun k => v (ix3 ((((cfg0.win 3).blk t).view.emb (ix3 u p d)) 0) k ((((cfg0.win 3).blk t).view.emb (ix3 u p d)) 2)))
    ?_ ?_ ?_).trans ?_
  · intro e
    show V m c main_arg0 (((cfg0.win 0).blk t).view.emb (ix3 (0 : Fin 1) p e)) = _
    rw [hq]
    refine congrArg (fun i => ((q i : ℝ) : EReal)) (funext fun a => Fin.ext ?_)
    match a with
    | ⟨0, _⟩ => show win0_0.index t (0 : Fin 3) * 1 + 1 * 0 = win0_3.index t (0 : Fin 3) * 1 + 1 * u.val; omega
    | ⟨1, _⟩ => show win0_0.index t (1 : Fin 3) * 1024 + 1 * p.val = win0_3.index t (1 : Fin 3) * 1024 + 1 * p.val; omega
    | ⟨2, _⟩ => show win0_0.index t (2 : Fin 3) * 64 + 1 * e.val = e.val; omega
  · intro k e
    show V m c main_arg1 (((cfg0.win 1).blk t).view.emb (ix3 (0 : Fin 1) k e)) = _
    rw [hk]
    refine congrArg (fun i => ((key i : ℝ) : EReal)) (funext fun a => Fin.ext ?_)
    match a with
    | ⟨0, _⟩ => show win0_1.index t (0 : Fin 3) * 1 + 1 * 0 = win0_3.index t (0 : Fin 3) * 1 + 1 * u.val; omega
    | ⟨1, _⟩ => show win0_1.index t (1 : Fin 3) * 2048 + 1 * k.val = k.val; omega
    | ⟨2, _⟩ => show win0_1.index t (2 : Fin 3) * 64 + 1 * e.val = e.val; omega
  · intro k
    show V m c main_arg2 (((cfg0.win 2).blk t).view.emb (ix3 (0 : Fin 1) k d)) = _
    rw [hv]
    refine congrArg (fun i => ((v i : ℝ) : EReal)) (funext fun a => Fin.ext ?_)
    match a with
    | ⟨0, _⟩ => show win0_2.index t (0 : Fin 3) * 1 + 1 * 0 = win0_3.index t (0 : Fin 3) * 1 + 1 * u.val; omega
    | ⟨1, _⟩ => show win0_2.index t (1 : Fin 3) * 2048 + 1 * k.val = k.val; omega
    | ⟨2, _⟩ => show win0_2.index t (2 : Fin 3) * 64 + 1 * d.val = win0_3.index t (2 : Fin 3) * 64 + 1 * d.val; omega
  · rfl

/-- An index of the result array is in point `t`'s tile iff each coordinate is in the tile's range on its axis. -/
theorem mem_tile (t : Fin cfg0.N) (i : S16x2048x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v0).slice (win0_3.rect t)).set ↔ _
  rw [View.set_slice_whole, Rect.mem_set_unit]
  exact Iff.rfl

/-- The tiles cover the result array: row r of batch b is in the tile of the point (b, r / 1024). -/
theorem tiles_cover (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := index_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_tile]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The result array after the run is the attention function of the argument arrays. -/
theorem final (c : Dev nD) (q key v : Cert.Attn.A.Idx → ℝ)
    (hq : ∀ i, V m c main_arg0 i = ((q i : ℝ) : EReal)) (hk : ∀ i, V m c main_arg1 i = ((key i : ℝ) : EReal))
    (hv : ∀ i, V m c main_arg2 i = ((v i : ℝ) : EReal)) :
    (dats m 0 c).arrAt 3 cfg0.N = Cert.Attn.G q key v :=
  (dats m 0 c).arrAt_eq_of_cover 3 (Cert.Attn.G q key v) (fun t _ => flushed_eq m c q key v hq hk hv t) tiles_cover

end Cert.KerSide

end
-- ==== Proof.RefAlgebra.lean ====
/-
  The algebra of softmax attention on the extended reals, away from any program.

  Two facts. A finite sum of products of reals divided by 8, computed in the extended reals, is the real quotient.
  And the main one: for real scores s_k (at least one), real values v_k and any real shift M,
      Σ_k  [exp(s_k − M) / (0 + Σ_j exp(s_j − M))] · v_k  =  (Σ_k exp(s_k) · v_k) / (Σ_k exp(s_k)),
  because the shift cancels from every weight, each weight is then a real number exp(s_k)/S with S = Σ_j exp(s_j) > 0,
  and Σ_k (exp(s_k)/S) · v_k = (Σ_k exp(s_k) · v_k)/S.
-/
import proofs.«129874_j14551349198869_2_alg».proof.Proof.Spec
import proofs.«129874_j14551349198869_2_alg».proof.Proof.LibSoftmaxShift

noncomputable section

open scoped BigOperators

namespace Cert.RefSide

open Idealize.ShloMosaic

/-- A sum of products of reals, divided by 8, all in the extended reals, is the real quotient. -/
theorem dot_div_eight {m : ℕ} (a b : Fin m → ℝ) :
    Ideal.div (∑ e : Fin m, ((a e : ℝ) : EReal) * ((b e : ℝ) : EReal)) ((8 : ℝ) : EReal)
      = (((∑ e : Fin m, a e * b e) / 8 : ℝ) : EReal) := by
  simp only [← EReal.coe_mul, Cert.Lib.SoftmaxShift.coe_sum]
  rw [Ideal.div_coe (by norm_num : (8 : ℝ) ≠ 0), ← EReal.coe_mul]
  refine congrArg _ ?_
  ring

/-- Softmax weights computed after subtracting a real shift, applied to real values, give the weighted mean
    of the values with the unshifted weights. -/
theorem weighted_mean {n : ℕ} (hn : 0 < n) (s v : Fin n → ℝ) (M : ℝ) :
    ∑ k : Fin n, Ideal.div (Ideal.exp ((s k : EReal) - (M : EReal)))
          ((0 : EReal) + ∑ j : Fin n, Ideal.exp ((s j : EReal) - (M : EReal))) * ((v k : ℝ) : EReal)
      = (((∑ k : Fin n, Real.exp (s k) * v k) / (∑ k : Fin n, Real.exp (s k)) : ℝ) : EReal) := by
  have hne : (Finset.univ : Finset (Fin n)).Nonempty := ⟨⟨0, hn⟩, Finset.mem_univ _⟩
  have hpos : 0 < ∑ k : Fin n, Real.exp (s k) := Finset.sum_pos (fun k _ => Real.exp_pos _) hne
  simp only [Cert.Lib.SoftmaxShift.softmax_shift hn s M, Ideal.exp_coe, Cert.Lib.SoftmaxShift.coe_sum]
  simp only [Ideal.div_coe hpos.ne', ← EReal.coe_mul, Cert.Lib.SoftmaxShift.coe_sum]
  refine congrArg _ ?_
  rw [Finset.sum_div]
  refine Finset.sum_congr rfl fun k _ => ?_
  ring

end Cert.RefSide

end
-- ==== Proof.RefRead.lean ====
/-
  The reference program is softmax attention, entry by entry.

  Reading the program's stages at an index, for real inputs q, key, v:
    * the scaled score at (b, r, k) is the real number score(b, r, k) = (Σ_e q(b,r,e)·key(b,k,e)) / 8,
      the divisor being the square root of the constant 64;
    * the guarded row maximum at (b, r) — the largest score of the row, folded from −∞ and compared with −∞ once
      more — is some real number M, the row having 2048 real scores;
    * the exponentials are exp(score(b, r, k) − M), their row sum is 0 + Σ_j exp(score(b, r, j) − M), and the weight
      at (b, r, k) is their quotient;
    * the result at (b, r, d) is Σ_k weight(b, r, k) · v(b, k, d),
  which the algebra of shifted softmax weights identifies with attn(b, r, d).
-/
import proofs.«129874_j14551349198869_2_alg».proof.Proof.Gen.ReferenceIdeal.Read
import proofs.«129874_j14551349198869_2_alg».proof.Proof.RefAlgebra
import proofs.«129874_j14551349198869_2_alg».proof.Proof.Consts

noncomputable section

open scoped BigOperators

namespace Cert.RefSide

open Idealize.ShloMosaic Idealize.ShloMosaic.ValueIdx Cert.ReferenceIdeal Cert.ReferenceIdeal.Gen Cert.ReferenceIdeal.Read

/-- A real array as an array of extended reals, the form in which the program's stages take their inputs. -/
abbrev realArr (x : Cert.Attn.A.Idx → ℝ) : (⟨S16x2048x64, .f32⟩ : BufTy).Contents (Elt Ideal) :=
  fun i => ((x i : ℝ) : EReal)

variable (q key v : Cert.Attn.A.Idx → ℝ)

/-- The scaled score stage at (b, r, k) is the real number score(b, r, k). -/
theorem score_at (b : Fin 16) (r k : Fin 2048) :
    val_main_v3 (F := Ideal) (realArr q) (realArr key) (ix3 b r k) = ((Cert.Attn.score q key b r k : ℝ) : EReal) := by
  have hl : ∀ e : Fin 64, lidx_main_v0 (ix3 b r k) e = ix3 b r e := fun e =>
    funext fun a => Fin.ext (by match a with | ⟨0, _⟩ => rfl | ⟨1, _⟩ => rfl | ⟨2, _⟩ => rfl)
  have hr : ∀ e : Fin 64, ridx_main_v0 (ix3 b r k) e = ix3 b k e := fun e =>
    funext fun a => Fin.ext (by match a with | ⟨0, _⟩ => rfl | ⟨1, _⟩ => rfl | ⟨2, _⟩ => rfl)
  rw [val_main_v3_apply, val_main_v0_apply, val_main_v2_apply, val_main_v1_apply, val_main_cst_apply]
  simp only [Ideal.hostDivf_def, Ideal.hostUnary_sqrt_def, Ideal.ofBits_def, Cert.Consts.ofBits_64, Cert.Consts.sqrt_64, hl, hr]
  exact dot_div_eight (fun e => q (ix3 b r e)) (fun e => key (ix3 b k e))

/-- The guarded row maximum at (b, r) is a real number. -/
theorem rowMax_at (b : Fin 16) (r : Fin 2048) :
    ∃ M : ℝ, val_main_v6 (F := Ideal) (realArr q) (realArr key) (ix2 b r) = (M : EReal) := by
  have hred : S16x2048x2048.Reduces [2] S16x2048 := by decide
  have hrow : (val_main_v3 (F := Ideal) (realArr q) (realArr key) ∘ hred.lift (ix2 b r))
      = fun k : Fin 2048 => ((Cert.Attn.score q key b r k : ℝ) : EReal) := by
    refine funext fun (k : Fin 2048) => ?_
    have hk : hred.lift (ix2 b r) k = ix3 b r k :=
      funext fun a => Fin.ext (by match a with | ⟨0, _⟩ => rfl | ⟨1, _⟩ => rfl | ⟨2, _⟩ => rfl)
    show val_main_v3 (F := Ideal) (realArr q) (realArr key) (hred.lift (ix2 b r) k) = _
    rw [hk, score_at]
  rw [val_main_v6_apply, val_main_v5_apply, val_main_cst_1_apply]
  unfold val_main_v4
  rw [Host.reduce_eq_fold_single FloatOps.maximumf _ _ reducesTo_S16x2048x2048_S16x2048_d2 hred h_S_ (ix2 b r),
    val_main_cst_0_apply, hrow]
  simp only [Ideal.ofBits_def, Cert.Consts.ofBits_neg_inf, Ideal.maximumf_def]
  exact Cert.Lib.SoftmaxShift.rowMax_real (by norm_num) (fun k : Fin 2048 => Cert.Attn.score q key b r k)

/-- With M the guarded row maximum at (b, r): the exponential stage at (b, r, k) is exp(score(b, r, k) − M). -/
theorem exp_at (b : Fin 16) (r k : Fin 2048) (M : ℝ)
    (hM : val_main_v6 (F := Ideal) (realArr q) (realArr key) (ix2 b r) = (M : EReal)) :
    val_main_v10 (F := Ideal) (realArr q) (realArr key) (ix3 b r k)
      = Ideal.exp (((Cert.Attn.score q key b r k : ℝ) : EReal) - (M : EReal)) := by
  have hi : idx_main_v7 (idx_main_v8 (ix3 b r k)) = ix2 b r :=
    funext fun a => Fin.ext (by match a with | ⟨0, _⟩ => rfl | ⟨1, _⟩ => rfl)
  rw [val_main_v10_apply, val_main_v9_apply, val_main_v8_apply, val_main_v7_apply, score_at, hi, hM]
  rfl

/-- The row sum of the exponentials at (b, r), summed from the constant 0. -/
theorem sum_at (b : Fin 16) (r : Fin 2048) (M : ℝ)
    (hM : val_main_v6 (F := Ideal) (realArr q) (realArr key) (ix2 b r) = (M : EReal)) :
    val_main_v11 (F := Ideal) (realArr q) (realArr key) (ix2 b r)
      = (0 : EReal) + ∑ j : Fin 2048, Ideal.exp (((Cert.Attn.score q key b r j : ℝ) : EReal) - (M : EReal)) := by
  have hi : ∀ j : Fin 2048, idx_main_v11 (ix2 b r) j = ix3 b r j := fun j =>
    funext fun a => Fin.ext (by match a with | ⟨0, _⟩ => rfl | ⟨1, _⟩ => rfl | ⟨2, _⟩ => rfl)
  rw [val_main_v11_apply, val_main_cst_2_apply]
  simp only [Ideal.ofBits_def, Ideal.ofBits_zero_f32, hi, exp_at q key b r _ M hM]

/-- The weight stage at (b, r, k): the exponential over the row sum. -/
theorem weight_at (b : Fin 16) (r k : Fin 2048) (M : ℝ)
    (hM : val_main_v6 (F := Ideal) (realArr q) (realArr key) (ix2 b r) = (M : EReal)) :
    val_main_v14 (F := Ideal) (realArr q) (realArr key) (ix3 b r k)
      = Ideal.div (Ideal.exp (((Cert.Attn.score q key b r k : ℝ) : EReal) - (M : EReal)))
          ((0 : EReal) + ∑ j : Fin 2048, Ideal.exp (((Cert.Attn.score q key b r j : ℝ) : EReal) - (M : EReal))) := by
  have hi : idx_main_v12 (idx_main_v13 (ix3 b r k)) = ix2 b r :=
    funext fun a => Fin.ext (by match a with | ⟨0, _⟩ => rfl | ⟨1, _⟩ => rfl)
  rw [val_main_v14_apply, val_main_v13_apply, val_main_v12_apply, hi, exp_at q key b r k M hM, sum_at q key b r M hM]
  rfl

/-- The reference program computes attention. -/
theorem ref_eq :
    val_main_v15 (F := Ideal) (fun i => ((q i : ℝ) : EReal)) (fun i => ((key i : ℝ) : EReal))
        (fun i => ((v i : ℝ) : EReal)) = Cert.Attn.G q key v := by
  show val_main_v15 (F := Ideal) (realArr q) (realArr key) (realArr v) = Cert.Attn.G q key v
  funext i
  obtain ⟨b, r, d, rfl⟩ : ∃ (b : Fin 16) (r : Fin 2048) (d : Fin 64), i = ix3 b r d := ⟨i 0, i 1, i 2, eq_ix3 i⟩
  obtain ⟨M, hM⟩ := rowMax_at q key b r
  have hl : ∀ k : Fin 2048, lidx_main_v15 (ix3 b r d) k = ix3 b r k := fun k =>
    funext fun a => Fin.ext (by match a with | ⟨0, _⟩ => rfl | ⟨1, _⟩ => rfl | ⟨2, _⟩ => rfl)
  have hr : ∀ k : Fin 2048, ridx_main_v15 (ix3 b r d) k = ix3 b k d := fun k =>
    funext fun a => Fin.ext (by match a with | ⟨0, _⟩ => rfl | ⟨1, _⟩ => rfl | ⟨2, _⟩ => rfl)
  rw [Cert.Attn.G_ix3, val_main_v15_apply]
  simp only [hl, hr, weight_at q key b r _ M hM]
  unfold Cert.Attn.attn
  exact weighted_mean (by norm_num) (fun k : Fin 2048 => Cert.Attn.score q key b r k) (fun k : Fin 2048 => v (ix3 b k d)) M

end Cert.RefSide

end
-- ==== Proof.lean ====
/-
  Scaled dot-product attention: a tiled kernel against the plain formula.

  Both programs compute, for 16 batches of 2048 rows of 64 features,
      out(b, r, d) = Σ_k softmax_k(score(b, r, ·)) · v(b, k, d),   score(b, r, k) = (Σ_e q(b,r,e) · key(b,k,e)) / √64.
  The kernel works on tiles of 1024 query rows: it scales the queries by 1/8 first, subtracts each row's maximum
  before exponentiating, and divides ONCE, after the product with the values, by the row's sum of exponentials. The
  reference divides the scores by √64 = 8, forms the softmax weights (also after subtracting the row maximum) and then
  multiplies by the values. With finite inputs every score is a real number, every row maximum is a real number,
  every sum of exponentials is a positive real, and both arrangements equal
      (Σ_k exp(score_k) · v_k) / (Σ_k exp(score_k))
  (the shift by the maximum cancels; a common positive divisor moves across a finite sum). Finiteness is needed:
  at an infinite score the exponentials and their quotient are not the real ones.

  The three frames are the generated ones (the reference's is its generated run with the result dropped); the
  idealization rewrote nothing, so its claim is trivial; the value claim sets the kernel's final array (tile by tile,
  KerBlocks over KerPay) beside the reference's run read stage by stage (RefRead), both equal to Spec's function.
-/
import proofs.«129874_j14551349198869_2_alg».proof.Defs
import proofs.«129874_j14551349198869_2_alg».proof.Proof.Gen.Kernel
import proofs.«129874_j14551349198869_2_alg».proof.Proof.Gen.Kernel.Skeleton
import proofs.«129874_j14551349198869_2_alg».proof.Proof.Gen.Kernel.Launch
import proofs.«129874_j14551349198869_2_alg».proof.Proof.Gen.Kernel.Points
import proofs.«129874_j14551349198869_2_alg».proof.Proof.Gen.Kernel.Frame
import proofs.«129874_j14551349198869_2_alg».proof.Proof.Gen.KernelIdeal
import proofs.«129874_j14551349198869_2_alg».proof.Proof.Gen.KernelIdeal.Skeleton
import proofs.«129874_j14551349198869_2_alg».proof.Proof.Gen.KernelIdeal.Launch
import proofs.«129874_j14551349198869_2_alg».proof.Proof.Gen.KernelIdeal.Points
import proofs.«129874_j14551349198869_2_alg».proof.Proof.Gen.KernelIdeal.Frame
import proofs.«129874_j14551349198869_2_alg».proof.Proof.Gen.ReferenceIdeal
import proofs.«129874_j14551349198869_2_alg».proof.Proof.Gen.Pre_finite_inputs
import proofs.«129874_j14551349198869_2_alg».proof.Proof.Gen.KernelIdeal.Value
import proofs.«129874_j14551349198869_2_alg».proof.Proof.Gen.ReferenceIdeal.Run
import proofs.«129874_j14551349198869_2_alg».proof.Proof.Gen.ReferenceIdeal.Read
import proofs.«129874_j14551349198869_2_alg».proof.Proof.Finite
import proofs.«129874_j14551349198869_2_alg».proof.Proof.KerBlocks
import proofs.«129874_j14551349198869_2_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : @Cert.frame_Kernel Cert.Kernel.Gen.facts Cert.Pre_finite_inputs.Gen.facts :=
  fun m ρ _ => Cert.Kernel.Gen.frame m ρ

/-- So does the kernel read on the extended reals. -/
theorem frame_kernelIdeal : @Cert.frame_KernelIdeal Cert.KernelIdeal.Gen.facts Cert.Pre_finite_inputs.Gen.facts :=
  fun m ρ _ => Cert.KernelIdeal.Gen.frame m ρ

/-- The reference's run, its result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on finite arguments both programs end with the attention function of the arguments. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hreal := fun c => Cert.Finite.real_of_pre _ _ _ (hpre c)
  choose q hq using fun c => (hreal c).1
  choose k hk using fun c => (hreal c).2.1
  choose v hv using fun c => (hreal c).2.2
  refine ⟨fun c => Cert.Attn.G (q c) (k c) (v c), ?_, ?_⟩
  · exact (θ_run Cert.KernelIdeal.defs _ _).mono
      (fun r h c => ⟨(h c).1.trans (Cert.KerSide.final m c (q c) (k c) (v c) (hq c) (hk c) (hv c)), (h c).2⟩)
      (Cert.KernelIdeal.Value.run_blocks m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v15_eq, (hagree c).1, (hagree c).2.1, (hagree c).2.2,
      show m ((c.tc : Thread Cert.KernelIdeal.nD Cert.KernelIdeal.τ).loc Cert.KernelIdeal.main_arg0)
        = (fun i => ((q c i : ℝ) : EReal)) from funext (hq c),
      show m ((c.tc : Thread Cert.KernelIdeal.nD Cert.KernelIdeal.τ).loc Cert.KernelIdeal.main_arg1)
        = (fun i => ((k c i : ℝ) : EReal)) from funext (hk c),
      show m ((c.tc : Thread Cert.KernelIdeal.nD Cert.KernelIdeal.τ).loc Cert.KernelIdeal.main_arg2)
        = (fun i => ((v c i : ℝ) : EReal)) from funext (hv c)]
    exact Cert.RefSide.ref_eq (q c) (k c) (v c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
